-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000x16 : Shape := ⟨2, ![100000, 16]⟩
abbrev S5000x512 : Shape := ⟨2, ![5000, 512]⟩
abbrev S5000x16 : Shape := ⟨2, ![5000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x7 : Shape := ⟨2, ![100000, 7]⟩
abbrev S5000x7 : Shape := ⟨2, ![5000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 137
  | .vmem => 10
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x7, .f32⟩
  | 5 => ⟨S7, .f32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S100000x7, .f32⟩
  | 67 => ⟨S100000, .i32⟩
  | 68 => ⟨S3300000, .i32⟩
  | 69 => ⟨S3300000, .i32⟩
  | 70 => ⟨S_, .f32⟩
  | 71 => ⟨S3300000, .f32⟩
  | 72 => ⟨S_, .f32⟩
  | 73 => ⟨S100000, .f32⟩
  | 74 => ⟨S3300000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S3300000, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x7, .f32⟩
  | 112 => ⟨S3300000x1, .f32⟩
  | 113 => ⟨S3300000x7, .f32⟩
  | 114 => ⟨S3300000x7, .f32⟩
  | 115 => ⟨S_, .f32⟩
  | 116 => ⟨S100000x7, .f32⟩
  | 117 => ⟨S3300000x1, .i32⟩
  | 118 => ⟨S100000x7, .f32⟩
  | 119 => ⟨S1x7, .f32⟩
  | 120 => ⟨S100000x7, .f32⟩
  | 121 => ⟨S100000x7, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x512, .f32⟩

abbrev hbmTy0_1 (i : Nat) : BufTy := match i % 128 with
  | 0 => ⟨S100000x7, .f32⟩
  | 1 => ⟨S100000x7, .f32⟩
  | 2 => ⟨S100000x7, .f32⟩
  | 3 => ⟨S_, .f32⟩
  | 4 => ⟨S100000, .f32⟩
  | 5 => ⟨S100000x1, .f32⟩
  | 6 => ⟨S100000x1, .f32⟩
  | 7 => ⟨S100000x7, .f32⟩
  | 8 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x7, .f32⟩
  | .local _ .vmem, ⟨8, _⟩ => ⟨S5000x7, .f32⟩
  | .local _ .vmem, ⟨9, _⟩ => ⟨S5000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_call1_v0 : Ref sig .tc := ⟨.hbm, 81, rfl⟩
abbrev main_call1_v1 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_call2_cst : Ref sig .tc := ⟨.hbm, 122, rfl⟩
abbrev main_call2_v0 : Ref sig .tc := ⟨.hbm, 123, rfl⟩
abbrev main_call2_cst_0 : Ref sig .tc := ⟨.hbm, 124, rfl⟩
abbrev main_call2_v1 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_v6 : Ref sig .tc := ⟨.hbm, 130, rfl⟩
abbrev main_call2_cst_1 : Ref sig .tc := ⟨.hbm, 131, rfl⟩
abbrev main_call2_v7 : Ref sig .tc := ⟨.hbm, 132, rfl⟩
abbrev main_call2_v8 : Ref sig .tc := ⟨.hbm, 133, rfl⟩
abbrev main_call2_v9 : Ref sig .tc := ⟨.hbm, 134, rfl⟩
abbrev main_call2_v10 : Ref sig .tc := ⟨.hbm, 135, rfl⟩
abbrev main_v90 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x7_S16x7_0_0 : ∀ a, (![0, 0] : Fin 2 → Nat) a + S16x7.size a ≤ S16x7.size a
  h_S16x7 : 0 < S16x7.numel
  inb_S5000x7_S5000x7_0_0 : ∀ a, (![0, 0] : Fin 2 → Nat) a + S5000x7.size a ≤ S5000x7.size a
  h_S5000x7 : 0 < S5000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S5000x512_S512x16_S5000x16_1_0_0_1_n_n_wf : DotDims.WF S5000x512 S512x16 S5000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x7_S5000x7_1_0_0_1_n_n_wf : DotDims.WF S5000x16 S16x7 S5000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x7.size a ≤ S100000x7.size a
  hwx1_2 : ∀ i : grid1.Coords, EltTy.bits .f32 = 32 ∨ (Rect.block (s := S100000x7) S5000x7.size (cc1_transform_2 i) (hinb1_2 i)).WholeWords (EltTy.packing .f32)

variable [Facts₀]

def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x7, .f32⟩
  | 5 => ⟨S7, .f32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x7, .f32⟩
  | 70 => ⟨S100000, .i32⟩
  | 71 => ⟨S3300000, .i32⟩
  | 72 => ⟨S3300000, .i32⟩
  | 73 => ⟨S_, .f32⟩
  | 74 => ⟨S3300000, .f32⟩
  | 75 => ⟨S_, .f32⟩
  | 76 => ⟨S100000, .f32⟩
  | 77 => ⟨S3300000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x7, .f32⟩
  | 115 => ⟨S3300000x1, .f32⟩
  | 116 => ⟨S3300000x7, .f32⟩
  | 117 => ⟨S3300000x7, .f32⟩
  | 118 => ⟨S_, .f32⟩
  | 119 => ⟨S100000x7, .f32⟩
  | 120 => ⟨S3300000x1, .i32⟩
  | 121 => ⟨S100000x7, .f32⟩
  | 122 => ⟨S1x7, .f32⟩
  | 123 => ⟨S100000x7, .f32⟩
  | 124 => ⟨S100000x7, .f32⟩
  | 125 => ⟨S_, .f32⟩
  | 126 => ⟨S100000, .f32⟩
  | 127 => ⟨S_, .f32⟩
  | _ => ⟨S100000x512, .f32⟩

abbrev hbmTy0_1 (i : Nat) : BufTy := match i % 128 with
  | 0 => ⟨S100000, .f32⟩
  | 1 => ⟨S100000, .f32⟩
  | 2 => ⟨S100000x1, .f32⟩
  | 3 => ⟨S100000x7, .f32⟩
  | 4 => ⟨S100000x7, .f32⟩
  | 5 => ⟨S100000x7, .f32⟩
  | 6 => ⟨S_, .f32⟩
  | 7 => ⟨S100000, .f32⟩
  | 8 => ⟨S100000x1, .f32⟩
  | 9 => ⟨S100000x1, .f32⟩
  | 10 => ⟨S100000x7, .f32⟩
  | 11 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel program run from any launch memory, with its result named.

  The program is two kernel regions — the tiled product x · W1 and the tiled product of the positive part of its
  operand with W2 — among stretches of host operations (the two neighbourhood aggregations and the final log-softmax).
  Its segments are run one after the other from the launch memory; the contents of every buffer at each boundary
  are a fold over that memory: a stretch of host operations applies its operations in order, a region replaces its
  arrays by what its write-backs leave and keeps every other buffer. Every weakly fair execution terminates without
  a fault in a state where, on each core, every unscoped buffer holds what the fold leaves in it after the last
  segment. Read at the result buffer this names the program's result; read at the argument buffers, which no
  segment writes, it gives back the launch contents.
-/
import proofs.«130650_j13898514169996_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; on each core the result buffer ends at
    the last boundary's contents (the fold of all ten segments over the launch memory) and the six argument arrays
    end as launched. -/
theorem run : θ_run defs (onTc (τ := τ) (main (F := F))) ⟨m, fun _ => 0, ρ⟩ (fun r => ∀ c : Dev nD,
      r.2.mem ((c.tc : Thread nD τ).loc main_v90) = W10 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v90 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)
end Cert.KernelIdeal.Named

end
-- ==== Proof.LibHostBoth.lean ====
/-
  Reading one buffer after a straight line of host operations.

  The contents of the buffers after a line of operations are a fold over the line: each operation replaces its
  result buffer by its function's value of its operand buffers and leaves every other buffer alone. So what ONE buffer
  holds after a literal line is a computation: walk the line backwards from that buffer, at each operation either
  taking its function's value (the buffer is its result) or passing through it (it is not), and do the same for the
  operands met on the way. `host_read` does this for a goal that mentions `StableHlo.after ops V (Proc.devRef .tc b)`
  for literal lists `ops` and literal references `b`, on both sides of an equation at once: one rewriting pass that
  visits every shared operand once, then a loop over what the pass cannot reach — the operands of a concatenation sit
  inside a list of pairs (shape, contents), under which the pass does not rewrite —, then the removal of the identity
  casts with which an outlined function's operations carry values to and from their buffers' own types. What is left
  is an equation between terms of the pure operations over `V` at the line's own inputs. Stated for two programs at
  once — `after opsR WR (Proc.devRef .tc bR) = after opsK WK (Proc.devRef .tc bK)` over two signatures, with hypotheses
  that `WR` and `WK` agree at the lines' inputs — the goal after `host_read` closes by rewriting with those
  hypotheses and `rfl`, when the two lines are the same operations. (On a line made only of an outlined function's
  operations the last of the three steps, removing the casts, can cost far more than the rest: there the first step
  alone, `after_results_simp`, leaves both sides with the same casts in the same places, which is enough.)
  `cut_list` evaluates the prefixes and suffixes (`List.take`, `List.drop`) of a literal list.
-/
import Idealize.ShloMosaic.Lib.StableHlo.Run

namespace Cert.LibHostBoth

open Idealize.ShloMosaic Idealize.ShloMosaic.StableHlo

/-- The loop: one operation's result at one reference per step, anywhere in the goal. -/
macro "results_loop" : tactic =>
  `(tactic| (repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))

/-- The pass, the loop, the casts. -/
macro "host_read" : tactic =>
  `(tactic| ((try after_results_simp); results_loop;
             (try simp only [StableHlo.TRef.toBuf, StableHlo.TRef.ofBuf, cast_eq])))

/-- Prefixes and suffixes of a literal list. -/
macro "cut_list" : tactic =>
  `(tactic| simp only [List.take_succ_cons, List.take_zero, List.drop_succ_cons, List.drop_zero, List.take_nil, List.drop_nil])

end Cert.LibHostBoth
-- ==== Proof.RefSeq.lean ====
/-
  The reference program's run, read off the library's run of a straight line of host operations.

  The reference is a straight line of host operations and nothing else, so every weakly fair execution of it
  terminates without a fault and leaves each buffer at the fold of the line over the launch memory. None of the 134
  operations writes an argument array: read through the whole line, each argument's buffer holds what it was
  launched with.
-/
import proofs.«130650_j13898514169996_1_alg».proof.Proof.RefRun
import proofs.«130650_j13898514169996_1_alg».proof.Proof.LibHostBoth

set_option maxRecDepth 16384

noncomputable section

namespace Cert.ReferenceIdeal.Seq

open Cert.ReferenceIdeal Cert.ReferenceIdeal.Gen Cert.ReferenceIdeal.ValueP
open Idealize.ShloMosaic Idealize.ShloMosaic.TcCoe Idealize.SL.Sem Idealize.ShloMosaic.StableHlo
open Cert.LibHostBoth

variable {F : FTy → Type} [FloatOps F]

/-- Every weakly fair execution of the reference terminates, nothing faulting, each buffer ending at the fold of the
    134 operations over the launch memory. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after (ops (F := F)) (launchContents m c) (Proc.devRef .tc b) :=
  run_seq scopedRefs_eq scopedSems_eq defs main (fun _ => ops) main_eq (fun _ => ops_sub) m ρ

set_option maxHeartbeats 16000000 in
/-- No operation of the line writes an argument array. -/
theorem keeps_args (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4)
    ∧ after (ops (F := F)) V (Proc.devRef .tc main_arg5) = V (Proc.devRef .tc main_arg5) :=
  ⟨by after_results_simp, by after_results_simp, by after_results_simp, by after_results_simp, by after_results_simp,
   by after_results_simp⟩

end Cert.ReferenceIdeal.Seq

end
-- ==== Proof.RefSplit.lean ====
/-
  The reference program's host operations, cut where the kernel program has its two kernel regions.

  The reference is one straight line of 134 host operations. Operation 5 is the product x · W1 and operations
  61 – 64 are the positive part of the first aggregation's result followed by its product with W2; the kernel program
  computes exactly these two values in its two kernel regions and is otherwise the same line. Cutting the line there
  gives the pieces — the slicing of the edge list (4 operations), the first product, the first neighbourhood
  aggregation (55), the positive part and the second product (4), the second aggregation (55) — and the final
  log-softmax (15) is taken as a sixth, since it reads its operand several times over. The contents after the whole
  line are the pieces' folds composed in order.
-/
import proofs.«130650_j13898514169996_1_alg».proof.Proof.RefRun

noncomputable section

namespace Cert.ReferenceIdeal.Split

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- The fold over two lines run one after the other is the second's fold of the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Operations 1 – 4: the two rows of the edge list, sliced and flattened. -/
def opsA : List (HloOp τ sig (Elt F)) := (ops (F := F)).take 4
/-- Operation 5: x · W1. -/
def opsP1 : List (HloOp τ sig (Elt F)) := ((ops (F := F)).drop 4).take 1
/-- Operations 6 – 60: the first aggregation over the edges, plus the bias. -/
def opsB : List (HloOp τ sig (Elt F)) := ((ops (F := F)).drop 5).take 55
/-- Operations 61 – 64: the positive part, then the product with W2. -/
def opsP2 : List (HloOp τ sig (Elt F)) := ((ops (F := F)).drop 60).take 4
/-- Operations 65 – 119: the second aggregation over the edges, plus the bias. -/
def opsC : List (HloOp τ sig (Elt F)) := ((ops (F := F)).drop 64).take 55
/-- Operations 120 – 134: the log-softmax of each row. -/
def opsS : List (HloOp τ sig (Elt F)) := (ops (F := F)).drop 119

/-- The line is its six pieces in order. -/
theorem ops_split : (ops (F := F)) = opsA ++ (opsP1 ++ (opsB ++ (opsP2 ++ (opsC ++ opsS)))) := rfl

/-- The contents after the whole line: the six folds composed. -/
theorem after_ops (V : Valuation τ sig (Elt F)) :
    after (ops (F := F)) V = after opsS (after opsC (after opsP2 (after opsB (after opsP1 (after opsA V))))) := by
  conv_lhs => rw [ops_split]
  rw [after_append, after_append, after_append, after_append, after_append]

end Cert.ReferenceIdeal.Split

end
-- ==== Proof.ChainHead.lean ====
/-
  The first stretch of host operations, in the two programs at once, and the reference's first product.

  Both programs begin by cutting the edge list (2 × 3200000 integers) into its row of sources and its row of targets.
  The four operations are the same in both, so from buffer contents that agree on the six argument arrays the two
  folds leave the same sources and targets, and leave the arguments as they were. The reference then forms x · W1 by one
  host operation; read after it, that buffer holds the operation's value of the two arguments and no other buffer has
  changed.
-/
import proofs.«130650_j13898514169996_1_alg».proof.Proof.RefSplit
import proofs.«130650_j13898514169996_1_alg».proof.Proof.Gen.KernelIdeal.Launch
import proofs.«130650_j13898514169996_1_alg».proof.Proof.LibHostBoth

set_option maxRecDepth 16384

noncomputable section

namespace Cert.Chain

open Idealize.ShloMosaic Idealize.ShloMosaic.TcCoe Idealize.SL.Sem Idealize.ShloMosaic.StableHlo
open Cert.LibHostBoth

variable {F : FTy → Type} [FloatOps F]
/-- After the first four operations the two programs' sources, targets and argument arrays agree, if the argument
    arrays agreed before. -/
theorem stretchA (WK : Valuation Cert.KernelIdeal.τ Cert.KernelIdeal.sig (Elt F)) (WR : Valuation Cert.ReferenceIdeal.τ Cert.ReferenceIdeal.sig (Elt F))
    (h_arg0 : (WR (Proc.devRef .tc Cert.ReferenceIdeal.main_arg0) : (⟨Cert.KernelIdeal.S100000x512, .f32⟩ : BufTy).Contents (Elt F)) = WK (Proc.devRef .tc Cert.KernelIdeal.main_arg0))
    (h_arg1 : (WR (Proc.devRef .tc Cert.ReferenceIdeal.main_arg1) : (⟨Cert.KernelIdeal.S2x3200000, .i32⟩ : BufTy).Contents (Elt F)) = WK (Proc.devRef .tc Cert.KernelIdeal.main_arg1))
    (h_arg2 : (WR (Proc.devRef .tc Cert.ReferenceIdeal.main_arg2) : (⟨Cert.KernelIdeal.S512x16, .f32⟩ : BufTy).Contents (Elt F)) = WK (Proc.devRef .tc Cert.KernelIdeal.main_arg2))
    (h_arg3 : (WR (Proc.devRef .tc Cert.ReferenceIdeal.main_arg3) : (⟨Cert.KernelIdeal.S16, .f32⟩ : BufTy).Contents (Elt F)) = WK (Proc.devRef .tc Cert.KernelIdeal.main_arg3))
    (h_arg4 : (WR (Proc.devRef .tc Cert.ReferenceIdeal.main_arg4) : (⟨Cert.KernelIdeal.S16x7, .f32⟩ : BufTy).Contents (Elt F)) = WK (Proc.devRef .tc Cert.KernelIdeal.main_arg4))
    (h_arg5 : (WR (Proc.devRef .tc Cert.ReferenceIdeal.main_arg5) : (⟨Cert.KernelIdeal.S7, .f32⟩ : BufTy).Contents (Elt F)) = WK (Proc.devRef .tc Cert.KernelIdeal.main_arg5)) :
    ((after (Cert.ReferenceIdeal.Split.opsA (F := F)) WR (Proc.devRef .tc Cert.ReferenceIdeal.main_v1) : (⟨Cert.KernelIdeal.S3200000, .i32⟩ : BufTy).Contents (Elt F))
        = after (Cert.KernelIdeal.Gen.hostOps0 (F := F)) WK (Proc.devRef .tc Cert.KernelIdeal.main_v1))
    ∧     ((after (Cert.ReferenceIdeal.Split.opsA (F := F)) WR (Proc.devRef .tc Cert.ReferenceIdeal.main_v3) : (⟨Cert.KernelIdeal.S3200000, .i32⟩ : BufTy).Contents (Elt F))
        = after (Cert.KernelIdeal.Gen.hostOps0 (F := F)) WK (Proc.devRef .tc Cert.KernelIdeal.main_v3))
    ∧     ((after (Cert.ReferenceIdeal.Split.opsA (F := F)) WR (Proc.devRef .tc Cert.ReferenceIdeal.main_arg0) : (⟨Cert.KernelIdeal.S100000x512, .f32⟩ : BufTy).Contents (Elt F))
        = after (Cert.KernelIdeal.Gen.hostOps0 (F := F)) WK (Proc.devRef .tc Cert.KernelIdeal.main_arg0))
    ∧     ((after (Cert.ReferenceIdeal.Split.opsA (F := F)) WR (Proc.devRef .tc Cert.ReferenceIdeal.main_arg2) : (⟨Cert.KernelIdeal.S512x16, .f32⟩ : BufTy).Contents (Elt F))
        = after (Cert.KernelIdeal.Gen.hostOps0 (F := F)) WK (Proc.devRef .tc Cert.KernelIdeal.main_arg2))
    ∧     ((after (Cert.ReferenceIdeal.Split.opsA (F := F)) WR (Proc.devRef .tc Cert.ReferenceIdeal.main_arg3) : (⟨Cert.KernelIdeal.S16, .f32⟩ : BufTy).Contents (Elt F))
        = after (Cert.KernelIdeal.Gen.hostOps0 (F := F)) WK (Proc.devRef .tc Cert.KernelIdeal.main_arg3))
    ∧     ((after (Cert.ReferenceIdeal.Split.opsA (F := F)) WR (Proc.devRef .tc Cert.ReferenceIdeal.main_arg4) : (⟨Cert.KernelIdeal.S16x7, .f32⟩ : BufTy).Contents (Elt F))
        = after (Cert.KernelIdeal.Gen.hostOps0 (F := F)) WK (Proc.devRef .tc Cert.KernelIdeal.main_arg4))
    ∧     ((after (Cert.ReferenceIdeal.Split.opsA (F := F)) WR (Proc.devRef .tc Cert.ReferenceIdeal.main_arg5) : (⟨Cert.KernelIdeal.S7, .f32⟩ : BufTy).Contents (Elt F))
        = after (Cert.KernelIdeal.Gen.hostOps0 (F := F)) WK (Proc.devRef .tc Cert.KernelIdeal.main_arg5)) :=
  ⟨(by unfold Cert.ReferenceIdeal.Split.opsA; simp only [Cert.ReferenceIdeal.ValueP.ops]; cut_list; host_read; rw [h_arg1]; rfl),
   (by unfold Cert.ReferenceIdeal.Split.opsA; simp only [Cert.ReferenceIdeal.ValueP.ops]; cut_list; host_read; rw [h_arg1]; rfl),
   (by unfold Cert.ReferenceIdeal.Split.opsA; simp only [Cert.ReferenceIdeal.ValueP.ops]; cut_list; host_read; exact h_arg0),
   (by unfold Cert.ReferenceIdeal.Split.opsA; simp only [Cert.ReferenceIdeal.ValueP.ops]; cut_list; host_read; exact h_arg2),
   (by unfold Cert.ReferenceIdeal.Split.opsA; simp only [Cert.ReferenceIdeal.ValueP.ops]; cut_list; host_read; exact h_arg3),
   (by unfold Cert.ReferenceIdeal.Split.opsA; simp only [Cert.ReferenceIdeal.ValueP.ops]; cut_list; host_read; exact h_arg4),
   (by unfold Cert.ReferenceIdeal.Split.opsA; simp only [Cert.ReferenceIdeal.ValueP.ops]; cut_list; host_read; exact h_arg5)⟩

/-- The reference's fifth operation leaves x · W1, as the host forms it, in its result buffer, -/
theorem productOne (WR : Valuation Cert.ReferenceIdeal.τ Cert.ReferenceIdeal.sig (Elt F)) :
    after (Cert.ReferenceIdeal.Split.opsP1 (F := F)) WR (Proc.devRef .tc Cert.ReferenceIdeal.main_v4)
      = Host.dotGeneral Cert.ReferenceIdeal.dot_S100000x512_S512x16_S100000x16_1_0_0_1_n_n none (WR (Proc.devRef .tc Cert.ReferenceIdeal.main_arg0)) (WR (Proc.devRef .tc Cert.ReferenceIdeal.main_arg2)) := by
  unfold Cert.ReferenceIdeal.Split.opsP1; simp only [Cert.ReferenceIdeal.ValueP.ops]; cut_list; host_read

/-- and every buffer the later operations read besides it as it was. -/
theorem productOne_keeps (WR : Valuation Cert.ReferenceIdeal.τ Cert.ReferenceIdeal.sig (Elt F)) :
    after (Cert.ReferenceIdeal.Split.opsP1 (F := F)) WR (Proc.devRef .tc Cert.ReferenceIdeal.main_v1) = WR (Proc.devRef .tc Cert.ReferenceIdeal.main_v1)
    ∧ after (Cert.ReferenceIdeal.Split.opsP1 (F := F)) WR (Proc.devRef .tc Cert.ReferenceIdeal.main_v3) = WR (Proc.devRef .tc Cert.ReferenceIdeal.main_v3)
    ∧ after (Cert.ReferenceIdeal.Split.opsP1 (F := F)) WR (Proc.devRef .tc Cert.ReferenceIdeal.main_arg3) = WR (Proc.devRef .tc Cert.ReferenceIdeal.main_arg3)
    ∧ after (Cert.ReferenceIdeal.Split.opsP1 (F := F)) WR (Proc.devRef .tc Cert.ReferenceIdeal.main_arg4) = WR (Proc.devRef .tc Cert.ReferenceIdeal.main_arg4)
    ∧ after (Cert.ReferenceIdeal.Split.opsP1 (F := F)) WR (Proc.devRef .tc Cert.ReferenceIdeal.main_arg5) = WR (Proc.devRef .tc Cert.ReferenceIdeal.main_arg5) :=
  ⟨by unfold Cert.ReferenceIdeal.Split.opsP1; simp only [Cert.ReferenceIdeal.ValueP.ops]; cut_list; host_read,
   by unfold Cert.ReferenceIdeal.Split.opsP1; simp only [Cert.ReferenceIdeal.ValueP.ops]; cut_list; host_read,
   by unfold Cert.ReferenceIdeal.Split.opsP1; simp only [Cert.ReferenceIdeal.ValueP.ops]; cut_list; host_read,
   by unfold Cert.ReferenceIdeal.Split.opsP1; simp only [Cert.ReferenceIdeal.ValueP.ops]; cut_list; host_read,
   by unfold Cert.ReferenceIdeal.Split.opsP1; simp only [Cert.ReferenceIdeal.ValueP.ops]; cut_list; host_read⟩

end Cert.Chain

end
-- ==== Proof.ChainMid.lean ====
/-
  The first neighbourhood aggregation, in the two programs at once.

  Between the product x · W1 and the positive part both programs run the same 55 host operations: the self-loops
  appended to the sources and targets, the in-degree of every node as a scatter-add of ones, its inverse square root
  where positive, the product of the two endpoints' factors per edge, the gathered rows scaled by it, their scatter-add
  into the targets' rows, and the bias added to every row. The operations read the product, the sources, the targets
  and the bias b1 and nothing else; so from buffer contents that agree on those four the two folds leave the same
  aggregated array, and they leave the sources, the targets and the later arguments as they were.
-/
import proofs.«130650_j13898514169996_1_alg».proof.Proof.RefSplit
import proofs.«130650_j13898514169996_1_alg».proof.Proof.Gen.KernelIdeal.Launch
import proofs.«130650_j13898514169996_1_alg».proof.Proof.LibHostBoth

set_option maxRecDepth 16384

noncomputable section

namespace Cert.Chain

open Idealize.ShloMosaic Idealize.ShloMosaic.TcCoe Idealize.SL.Sem Idealize.ShloMosaic.StableHlo
open Cert.LibHostBoth

variable {F : FTy → Type} [FloatOps F]
set_option maxHeartbeats 16000000 in
/-- After the first aggregation the two programs' aggregated arrays agree, and so do the buffers read later, if the
    product, the sources, the targets and the arguments agreed before. -/
theorem stretchB (WK : Valuation Cert.KernelIdeal.τ Cert.KernelIdeal.sig (Elt F)) (WR : Valuation Cert.ReferenceIdeal.τ Cert.ReferenceIdeal.sig (Elt F))
    (h_v4 : (WR (Proc.devRef .tc Cert.ReferenceIdeal.main_v4) : (⟨Cert.KernelIdeal.S100000x16, .f32⟩ : BufTy).Contents (Elt F)) = WK (Proc.devRef .tc Cert.KernelIdeal.main_v4))
    (h_v1 : (WR (Proc.devRef .tc Cert.ReferenceIdeal.main_v1) : (⟨Cert.KernelIdeal.S3200000, .i32⟩ : BufTy).Contents (Elt F)) = WK (Proc.devRef .tc Cert.KernelIdeal.main_v1))
    (h_v3 : (WR (Proc.devRef .tc Cert.ReferenceIdeal.main_v3) : (⟨Cert.KernelIdeal.S3200000, .i32⟩ : BufTy).Contents (Elt F)) = WK (Proc.devRef .tc Cert.KernelIdeal.main_v3))
    (h_arg3 : (WR (Proc.devRef .tc Cert.ReferenceIdeal.main_arg3) : (⟨Cert.KernelIdeal.S16, .f32⟩ : BufTy).Contents (Elt F)) = WK (Proc.devRef .tc Cert.KernelIdeal.main_arg3))
    (h_arg4 : (WR (Proc.devRef .tc Cert.ReferenceIdeal.main_arg4) : (⟨Cert.KernelIdeal.S16x7, .f32⟩ : BufTy).Contents (Elt F)) = WK (Proc.devRef .tc Cert.KernelIdeal.main_arg4))
    (h_arg5 : (WR (Proc.devRef .tc Cert.ReferenceIdeal.main_arg5) : (⟨Cert.KernelIdeal.S7, .f32⟩ : BufTy).Contents (Elt F)) = WK (Proc.devRef .tc Cert.KernelIdeal.main_arg5)) :
    ((after (Cert.ReferenceIdeal.Split.opsB (F := F)) WR (Proc.devRef .tc Cert.ReferenceIdeal.main_v46) : (⟨Cert.KernelIdeal.S100000x16, .f32⟩ : BufTy).Contents (Elt F))
        = after (Cert.KernelIdeal.Gen.hostOps1_2 (F := F)) (after (Cert.KernelIdeal.Gen.hostOps1_1 (F := F)) (after (Cert.KernelIdeal.Gen.hostOps1 (F := F)) WK)) (Proc.devRef .tc Cert.KernelIdeal.main_v46))
    ∧     ((after (Cert.ReferenceIdeal.Split.opsB (F := F)) WR (Proc.devRef .tc Cert.ReferenceIdeal.main_v1) : (⟨Cert.KernelIdeal.S3200000, .i32⟩ : BufTy).Contents (Elt F))
        = after (Cert.KernelIdeal.Gen.hostOps1_2 (F := F)) (after (Cert.KernelIdeal.Gen.hostOps1_1 (F := F)) (after (Cert.KernelIdeal.Gen.hostOps1 (F := F)) WK)) (Proc.devRef .tc Cert.KernelIdeal.main_v1))
    ∧     ((after (Cert.ReferenceIdeal.Split.opsB (F := F)) WR (Proc.devRef .tc Cert.ReferenceIdeal.main_v3) : (⟨Cert.KernelIdeal.S3200000, .i32⟩ : BufTy).Contents (Elt F))
        = after (Cert.KernelIdeal.Gen.hostOps1_2 (F := F)) (after (Cert.KernelIdeal.Gen.hostOps1_1 (F := F)) (after (Cert.KernelIdeal.Gen.hostOps1 (F := F)) WK)) (Proc.devRef .tc Cert.KernelIdeal.main_v3))
    ∧     ((after (Cert.ReferenceIdeal.Split.opsB (F := F)) WR (Proc.devRef .tc Cert.ReferenceIdeal.main_arg4) : (⟨Cert.KernelIdeal.S16x7, .f32⟩ : BufTy).Contents (Elt F))
        = after (Cert.KernelIdeal.Gen.hostOps1_2 (F := F)) (after (Cert.KernelIdeal.Gen.hostOps1_1 (F := F)) (after (Cert.KernelIdeal.Gen.hostOps1 (F := F)) WK)) (Proc.devRef .tc Cert.KernelIdeal.main_arg4))
    ∧     ((after (Cert.ReferenceIdeal.Split.opsB (F := F)) WR (Proc.devRef .tc Cert.ReferenceIdeal.main_arg5) : (⟨Cert.KernelIdeal.S7, .f32⟩ : BufTy).Contents (Elt F))
        = after (Cert.KernelIdeal.Gen.hostOps1_2 (F := F)) (after (Cert.KernelIdeal.Gen.hostOps1_1 (F := F)) (after (Cert.KernelIdeal.Gen.hostOps1 (F := F)) WK)) (Proc.devRef .tc Cert.KernelIdeal.main_arg5)) :=
  ⟨(by unfold Cert.ReferenceIdeal.Split.opsB; simp only [Cert.ReferenceIdeal.ValueP.ops]; cut_list; host_read; rw [h_v4, h_v1, h_v3, h_arg3]; rfl),
   (by unfold Cert.ReferenceIdeal.Split.opsB; simp only [Cert.ReferenceIdeal.ValueP.ops]; cut_list; host_read; exact h_v1),
   (by unfold Cert.ReferenceIdeal.Split.opsB; simp only [Cert.ReferenceIdeal.ValueP.ops]; cut_list; host_read; exact h_v3),
   (by unfold Cert.ReferenceIdeal.Split.opsB; simp only [Cert.ReferenceIdeal.ValueP.ops]; cut_list; host_read; exact h_arg4),
   (by unfold Cert.ReferenceIdeal.Split.opsB; simp only [Cert.ReferenceIdeal.ValueP.ops]; cut_list; host_read; exact h_arg5)⟩

end Cert.Chain

end
-- ==== Proof.ChainTail.lean ====
/-
  The reference's positive part and second product, and the second aggregation in the two programs at once.

  The reference forms max(h, 0) and its product with W2 by four host operations (a zero constant, its broadcast, the
  maximum, the product); read after them the product's buffer holds that value of h and W2, and the sources, the
  targets and the bias b2 are as they were. Both programs then run the same 55 host operations on that product: the
  second aggregation over the edges, exactly as the first, and the bias b2 added to every row. They read the product,
  the sources, the targets and b2 and nothing else; so from buffer contents that agree on those four the two folds
  leave the same aggregated array.
-/
import proofs.«130650_j13898514169996_1_alg».proof.Proof.RefSplit
import proofs.«130650_j13898514169996_1_alg».proof.Proof.Gen.KernelIdeal.Launch
import proofs.«130650_j13898514169996_1_alg».proof.Proof.LibHostBoth

set_option maxRecDepth 16384

noncomputable section

namespace Cert.Chain

open Idealize.ShloMosaic Idealize.ShloMosaic.TcCoe Idealize.SL.Sem Idealize.ShloMosaic.StableHlo
open Cert.LibHostBoth

variable {F : FTy → Type} [FloatOps F]

/-- The reference's operations 61 – 64 leave (h)⁺ · W2, as the host forms it, in the product's buffer, -/
theorem productTwo (WR : Valuation Cert.ReferenceIdeal.τ Cert.ReferenceIdeal.sig (Elt F)) :
    after (Cert.ReferenceIdeal.Split.opsP2 (F := F)) WR (Proc.devRef .tc Cert.ReferenceIdeal.main_v48)
      = Host.dotGeneral Cert.ReferenceIdeal.dot_S100000x16_S16x7_S100000x7_1_0_0_1_n_n none
          (maximumf (WR (Proc.devRef .tc Cert.ReferenceIdeal.main_v46)) (broadcastInDim Cert.ReferenceIdeal.S100000x16 ![] Cert.ReferenceIdeal.Facts₀.bcast_S_S100000x16 (constant (F := F) Cert.ReferenceIdeal.S_ .f32 0x00000000#32)))
          (WR (Proc.devRef .tc Cert.ReferenceIdeal.main_arg4)) := by
  unfold Cert.ReferenceIdeal.Split.opsP2; simp only [Cert.ReferenceIdeal.ValueP.ops]; cut_list; host_read

/-- and the sources, the targets and the second bias as they were. -/
theorem productTwo_keeps (WR : Valuation Cert.ReferenceIdeal.τ Cert.ReferenceIdeal.sig (Elt F)) :
    after (Cert.ReferenceIdeal.Split.opsP2 (F := F)) WR (Proc.devRef .tc Cert.ReferenceIdeal.main_v1) = WR (Proc.devRef .tc Cert.ReferenceIdeal.main_v1)
    ∧ after (Cert.ReferenceIdeal.Split.opsP2 (F := F)) WR (Proc.devRef .tc Cert.ReferenceIdeal.main_v3) = WR (Proc.devRef .tc Cert.ReferenceIdeal.main_v3)
    ∧ after (Cert.ReferenceIdeal.Split.opsP2 (F := F)) WR (Proc.devRef .tc Cert.ReferenceIdeal.main_arg5) = WR (Proc.devRef .tc Cert.ReferenceIdeal.main_arg5) :=
  ⟨by unfold Cert.ReferenceIdeal.Split.opsP2; simp only [Cert.ReferenceIdeal.ValueP.ops]; cut_list; host_read,
   by unfold Cert.ReferenceIdeal.Split.opsP2; simp only [Cert.ReferenceIdeal.ValueP.ops]; cut_list; host_read,
   by unfold Cert.ReferenceIdeal.Split.opsP2; simp only [Cert.ReferenceIdeal.ValueP.ops]; cut_list; host_read⟩
set_option maxHeartbeats 16000000 in
/-- After the second aggregation the two programs' aggregated arrays agree, if the second product, the sources, the
    targets and the second bias agreed before. -/
theorem stretchC (WK : Valuation Cert.KernelIdeal.τ Cert.KernelIdeal.sig (Elt F)) (WR : Valuation Cert.ReferenceIdeal.τ Cert.ReferenceIdeal.sig (Elt F))
    (h_h2 : (WR (Proc.devRef .tc Cert.ReferenceIdeal.main_v48) : (⟨Cert.KernelIdeal.S100000x7, .f32⟩ : BufTy).Contents (Elt F)) = WK (Proc.devRef .tc Cert.KernelIdeal.main_v47))
    (h_v1 : (WR (Proc.devRef .tc Cert.ReferenceIdeal.main_v1) : (⟨Cert.KernelIdeal.S3200000, .i32⟩ : BufTy).Contents (Elt F)) = WK (Proc.devRef .tc Cert.KernelIdeal.main_v1))
    (h_v3 : (WR (Proc.devRef .tc Cert.ReferenceIdeal.main_v3) : (⟨Cert.KernelIdeal.S3200000, .i32⟩ : BufTy).Contents (Elt F)) = WK (Proc.devRef .tc Cert.KernelIdeal.main_v3))
    (h_arg5 : (WR (Proc.devRef .tc Cert.ReferenceIdeal.main_arg5) : (⟨Cert.KernelIdeal.S7, .f32⟩ : BufTy).Contents (Elt F)) = WK (Proc.devRef .tc Cert.KernelIdeal.main_arg5)) :
    ((after (Cert.ReferenceIdeal.Split.opsC (F := F)) WR (Proc.devRef .tc Cert.ReferenceIdeal.main_v90) : (⟨Cert.KernelIdeal.S100000x7, .f32⟩ : BufTy).Contents (Elt F))
        = after (Cert.KernelIdeal.Gen.hostOps2_2 (F := F)) (after (Cert.KernelIdeal.Gen.hostOps2_1 (F := F)) (after (Cert.KernelIdeal.Gen.hostOps2 (F := F)) WK)) (Proc.devRef .tc Cert.KernelIdeal.main_v89)) := by
  unfold Cert.ReferenceIdeal.Split.opsC; simp only [Cert.ReferenceIdeal.ValueP.ops]; cut_list; host_read; rw [h_h2, h_v1, h_v3, h_arg5]; rfl

end Cert.Chain

end
-- ==== Proof.ChainSoftmax.lean ====
/-
  The final log-softmax, in the two programs at once.

  Both programs end with the same 15 host operations on the second aggregated array y (100000 rows of 7): each row's
  maximum (from −∞) subtracted from the row, giving z; the exponentials of z summed along the row; the logarithm of
  that sum subtracted from z. They read y and nothing else, so from buffer contents that agree on y the two folds
  leave the same result.
-/
import proofs.«130650_j13898514169996_1_alg».proof.Proof.RefSplit
import proofs.«130650_j13898514169996_1_alg».proof.Proof.Gen.KernelIdeal.Launch
import proofs.«130650_j13898514169996_1_alg».proof.Proof.LibHostBoth

set_option maxRecDepth 16384

noncomputable section

namespace Cert.Chain

open Idealize.ShloMosaic Idealize.ShloMosaic.TcCoe Idealize.SL.Sem Idealize.ShloMosaic.StableHlo
open Cert.LibHostBoth

variable {F : FTy → Type} [FloatOps F]

set_option maxHeartbeats 16000000 in
/-- After the log-softmax the two programs' results agree, if the aggregated arrays agreed before. -/
theorem stretchS (WK : Valuation Cert.KernelIdeal.τ Cert.KernelIdeal.sig (Elt F)) (WR : Valuation Cert.ReferenceIdeal.τ Cert.ReferenceIdeal.sig (Elt F))
    (h_y : (WR (Proc.devRef .tc Cert.ReferenceIdeal.main_v90) : (⟨Cert.KernelIdeal.S100000x7, .f32⟩ : BufTy).Contents (Elt F)) = WK (Proc.devRef .tc Cert.KernelIdeal.main_v89)) :
    ((after (Cert.ReferenceIdeal.Split.opsS (F := F)) WR (Proc.devRef .tc Cert.ReferenceIdeal.main_v91) : (⟨Cert.KernelIdeal.S100000x7, .f32⟩ : BufTy).Contents (Elt F))
        = after (Cert.KernelIdeal.Gen.hostOps2_3 (F := F)) WK (Proc.devRef .tc Cert.KernelIdeal.main_v90)) := by
  unfold Cert.ReferenceIdeal.Split.opsS; simp only [Cert.ReferenceIdeal.ValueP.ops]; cut_list; after_results_simp; rw [h_y]

end Cert.Chain

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«130650_j13898514169996_1_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibMatOps.lean ====
/-
  Array functions over the extended reals, for any sizes, each stated at an index through its two coordinates: the
  matrix product entry by entry (mm), one row added to every row (addRow), the sums down each column of the entries
  (colSum) and of their squares (colSumSq) as one row, a scale and a shift applied column by column (affine), and the
  positive part (relu).  The lemmas named `_apply` read each at the index built from two literal coordinates, by
  definition.  A tiled kernel's closed form (a dense layer with a bias row, a column-sum accumulator, a column-wise
  normalisation) can be stated as one of these functions of its whole input arrays.
-/
import Idealize.ShloMosaic.Lib.ValueIdx
import Idealize.ShloMosaic.PureOps.Ideal

noncomputable section

open scoped BigOperators

namespace Cert.Spec

open Idealize.ShloMosaic Idealize.ShloMosaic.ValueIdx

variable {n k d : ℕ}

/-- An n × d array of extended reals. -/
abbrev Mat (n d : ℕ) : Type := (⟨2, ![n, d]⟩ : Shape).Idx → EReal

/-- The matrix product: entry (p, j) is the sum over q of X (p, q) · W (q, j). -/
def mm (X : Mat n k) (W : Mat k d) : Mat n d := fun i => ∑ q : Fin k, X (ix2 (i 0) q) * W (ix2 q (i 1))

theorem mm_apply (X : Mat n k) (W : Mat k d) (p : Fin n) (j : Fin d) :
    mm X W (ix2 p j) = ∑ q : Fin k, X (ix2 p q) * W (ix2 q j) := rfl

/-- The one row B added to every row of Y. -/
def addRow (Y : Mat n d) (B : Mat 1 d) : Mat n d := fun i => Y i + B (ix2 (0 : Fin 1) (i 1))

theorem addRow_apply (Y : Mat n d) (B : Mat 1 d) (p : Fin n) (j : Fin d) :
    addRow Y B (ix2 p j) = Y (ix2 p j) + B (ix2 (0 : Fin 1) j) := rfl

/-- The sum down each column, as one row. -/
def colSum (X : Mat n d) : Mat 1 d := fun i => ∑ p : Fin n, X (ix2 p (i 1))

theorem colSum_apply (X : Mat n d) (z : Fin 1) (j : Fin d) : colSum X (ix2 z j) = ∑ p : Fin n, X (ix2 p j) := rfl

/-- The sum of the squares down each column, as one row. -/
def colSumSq (X : Mat n d) : Mat 1 d := fun i => ∑ p : Fin n, X (ix2 p (i 1)) * X (ix2 p (i 1))

theorem colSumSq_apply (X : Mat n d) (z : Fin 1) (j : Fin d) :
    colSumSq X (ix2 z j) = ∑ p : Fin n, X (ix2 p j) * X (ix2 p j) := rfl

/-- Column j scaled by S j and shifted by T j. -/
def affine (X : Mat n d) (S T : Mat 1 d) : Mat n d :=
  fun i => X i * S (ix2 (0 : Fin 1) (i 1)) + T (ix2 (0 : Fin 1) (i 1))

theorem affine_apply (X : Mat n d) (S T : Mat 1 d) (p : Fin n) (j : Fin d) :
    affine X S T (ix2 p j) = X (ix2 p j) * S (ix2 (0 : Fin 1) j) + T (ix2 (0 : Fin 1) j) := rfl

/-- The positive part, entry by entry. -/
def relu (Y : Mat n d) : Mat n d := fun i => max (Y i) 0

theorem relu_apply (Y : Mat n d) (p : Fin n) (j : Fin d) : relu Y (ix2 p j) = max (Y (ix2 p j)) 0 := rfl

end Cert.Spec

end
-- ==== Proof.LibGcn.lean ====
/-
  Graph-convolution layers over the extended reals, for any sizes.

  One layer of a graph convolution multiplies a feature matrix Y by the adjacency matrix A, keeps the positive part,
  and multiplies by the next layer's weights W:  layer A Y W = (A · Y)⁺ · W.  The last layer stops at (A · Y)⁺.
  Read at the exact extended reals, where a change of float format is the identity:
    * a matrix-unit product into the zero accumulator and a host `dot_general`, under dimension numbers that are the
      plain ones (rows × inner times inner × columns), are the matrix product `mm` as whole arrays;
    * the maximum with a splat of the zero word, and with a rank-0 zero constant broadcast in dimension, is `relu`;
    * so a kernel body  truncf (matmul (truncf (max (matmul A Y 0) 0)) W 0)  is `layer A Y W`, and the host's
      max (dot_general A (dot_general Z W)) 0  is `relu (mm A (mm Z W))`.
  Entry (p, j) of `layer A Y W` and of `relu (mm A Y)` reads row p of A only: a block of rows of A gives the same rows
  of the result (`layer_rows`, `last_rows`).
-/
import Idealize.ShloMosaic.Lib.ValueIdx
import Idealize.ShloMosaic.Lib.Pipeline.Value
import Idealize.ShloMosaic.PureOps.Ideal.Laws
import proofs.«130650_j13898514169996_1_alg».proof.Proof.LibPlainDot
import proofs.«130650_j13898514169996_1_alg».proof.Proof.LibMatOps

noncomputable section

open scoped BigOperators

namespace Cert.LibGcn

open Idealize.ShloMosaic Idealize.ShloMosaic.ValueIdx Cert.Spec

variable {r n h e N : ℕ}

/-- (A · Y)⁺ · W. -/
def layer (A : Mat r n) (Y : Mat n h) (W : Mat h e) : Mat r e := mm (relu (mm A Y)) W

/-- A change of float format is the identity on the extended reals. -/
theorem truncf_eq {s : Shape} {φ ψ : FTy} (x : FVec Ideal s φ) (hlt : ψ.bits < φ.bits) :
    (truncf ψ x hlt : FVec Ideal s ψ) = x := rfl

/-- A matrix-unit product into the zero accumulator is the matrix product. -/
theorem matmul_zero_eq_mm {φ₁ φ₂ : FTy} (D : DotDims ⟨2, ![r, n]⟩ ⟨2, ![n, h]⟩ ⟨2, ![r, h]⟩) (hD : D = DotDims.plain r n h)
    (prec : Option ContractPrecision) (A : FVec Ideal ⟨2, ![r, n]⟩ φ₁) (Y : FVec Ideal ⟨2, ![n, h]⟩ φ₂) :
    matmul D prec A Y (constant (F := Ideal) ⟨2, ![r, h]⟩ .f32 0x00000000#32) = mm A Y := by
  funext i
  obtain ⟨p, c, rfl⟩ : ∃ (p : Fin r) (c : Fin h), i = ix2 p c := ⟨i 0, i 1, eq_ix2 i⟩
  exact (Cert.LibPlainDot.matmul_zero_apply D hD prec A Y p c).trans (mm_apply A Y p c).symm

/-- A host `dot_general` is the matrix product. -/
theorem dotGeneral_eq_mm {φ₁ φ₂ : FTy} (D : DotDims ⟨2, ![r, n]⟩ ⟨2, ![n, h]⟩ ⟨2, ![r, h]⟩) (hD : D = DotDims.plain r n h)
    (prec : Option ContractPrecision) (A : FVec Ideal ⟨2, ![r, n]⟩ φ₁) (Y : FVec Ideal ⟨2, ![n, h]⟩ φ₂) :
    Host.dotGeneral D prec A Y = mm A Y := by
  funext i
  obtain ⟨p, c, rfl⟩ : ∃ (p : Fin r) (c : Fin h), i = ix2 p c := ⟨i 0, i 1, eq_ix2 i⟩
  exact (Cert.LibPlainDot.dotGeneral_apply D hD prec .single A Y p c).trans (mm_apply A Y p c).symm

/-- The maximum with a splat of the zero word is the positive part. -/
theorem max_splat_zero (X : FVec Ideal ⟨2, ![r, h]⟩ .f32) :
    maximumf X (broadcast ⟨2, ![r, h]⟩ (Scalar.ofBits .f32 0x00000000#32 : Ideal .f32)) = relu X := by
  funext i
  show max (X i) (Ideal.ofBits .f32 0x00000000#32) = max (X i) 0
  rw [Ideal.ofBits_zero_f32]

/-- The maximum with a zero constant of any shape broadcast in dimension is the positive part. -/
theorem max_bcast_zero {s0 : Shape} (dims : Fin s0.rank → Fin (⟨2, ![r, h]⟩ : Shape).rank)
    (hb : s0.BroadcastsInDim ⟨2, ![r, h]⟩ dims) (X : FVec Ideal ⟨2, ![r, h]⟩ .f32) :
    maximumf X (broadcastInDim ⟨2, ![r, h]⟩ dims hb (constant (F := Ideal) s0 .f32 0x00000000#32)) = relu X := by
  funext i
  show max (X i) (broadcastInDim ⟨2, ![r, h]⟩ dims hb (constant (F := Ideal) s0 .f32 0x00000000#32) i) = max (X i) 0
  unfold broadcastInDim
  show max (X i) (Ideal.ofBits .f32 0x00000000#32) = max (X i) 0
  rw [Ideal.ofBits_zero_f32]

/-- The fused body of a middle layer: two matrix-unit products around the positive part. -/
theorem body_layer (D1 : DotDims ⟨2, ![r, n]⟩ ⟨2, ![n, h]⟩ ⟨2, ![r, h]⟩) (hD1 : D1 = DotDims.plain r n h)
    (D2 : DotDims ⟨2, ![r, h]⟩ ⟨2, ![h, e]⟩ ⟨2, ![r, e]⟩) (hD2 : D2 = DotDims.plain r h e)
    {φ₁ φ₂ φ₃ : FTy} (A : FVec Ideal ⟨2, ![r, n]⟩ φ₁) (Y : FVec Ideal ⟨2, ![n, h]⟩ φ₂) (W : FVec Ideal ⟨2, ![h, e]⟩ φ₃) :
    matmul D2 none (maximumf (matmul D1 none A Y (constant (F := Ideal) ⟨2, ![r, h]⟩ .f32 0x00000000#32))
        (broadcast ⟨2, ![r, h]⟩ (Scalar.ofBits .f32 0x00000000#32 : Ideal .f32))) W
      (constant (F := Ideal) ⟨2, ![r, e]⟩ .f32 0x00000000#32) = layer A Y W := by
  rw [matmul_zero_eq_mm D1 hD1, max_splat_zero]
  exact matmul_zero_eq_mm D2 hD2 none (relu (mm A Y)) W

/-- The body of the last layer: one matrix-unit product and the positive part. -/
theorem body_last (D1 : DotDims ⟨2, ![r, n]⟩ ⟨2, ![n, h]⟩ ⟨2, ![r, h]⟩) (hD1 : D1 = DotDims.plain r n h)
    {φ₁ φ₂ : FTy} (A : FVec Ideal ⟨2, ![r, n]⟩ φ₁) (Y : FVec Ideal ⟨2, ![n, h]⟩ φ₂) :
    maximumf (matmul D1 none A Y (constant (F := Ideal) ⟨2, ![r, h]⟩ .f32 0x00000000#32))
        (broadcast ⟨2, ![r, h]⟩ (Scalar.ofBits .f32 0x00000000#32 : Ideal .f32)) = relu (mm A Y) := by
  rw [matmul_zero_eq_mm D1 hD1, max_splat_zero]

/-- One host layer: the product with the weights, the product with the adjacency matrix, the positive part. -/
theorem host_layer {s0 : Shape} (DW : DotDims ⟨2, ![N, h]⟩ ⟨2, ![h, e]⟩ ⟨2, ![N, e]⟩) (hDW : DW = DotDims.plain N h e)
    (DA : DotDims ⟨2, ![r, N]⟩ ⟨2, ![N, e]⟩ ⟨2, ![r, e]⟩) (hDA : DA = DotDims.plain r N e)
    (dims : Fin s0.rank → Fin (⟨2, ![r, e]⟩ : Shape).rank) (hb : s0.BroadcastsInDim ⟨2, ![r, e]⟩ dims)
    (A : FVec Ideal ⟨2, ![r, N]⟩ .f32) (Z : FVec Ideal ⟨2, ![N, h]⟩ .f32) (W : FVec Ideal ⟨2, ![h, e]⟩ .f32) :
    maximumf (Host.dotGeneral DA none A (Host.dotGeneral DW none Z W))
        (broadcastInDim ⟨2, ![r, e]⟩ dims hb (constant (F := Ideal) s0 .f32 0x00000000#32)) = relu (mm A (mm Z W)) := by
  rw [dotGeneral_eq_mm DW hDW, dotGeneral_eq_mm DA hDA]
  exact max_bcast_zero dims hb _

/-- Row p of the matrix product reads row p of the left factor only. -/
theorem mm_rows (A' : Mat r n) (A : Mat N n) (Y : Mat n h) (p : Fin r) (p' : Fin N) (j : Fin h)
    (hA : ∀ s : Fin n, A' (ix2 p s) = A (ix2 p' s)) : mm A' Y (ix2 p j) = mm A Y (ix2 p' j) := by
  rw [mm_apply, mm_apply]
  exact Finset.sum_congr rfl fun s _ => by rw [hA s]

/-- Row p of a layer's result reads row p of the adjacency block only. -/
theorem layer_rows (A' : Mat r n) (A : Mat N n) (Y : Mat n h) (W : Mat h e) (p : Fin r) (p' : Fin N) (j : Fin e)
    (hA : ∀ s : Fin n, A' (ix2 p s) = A (ix2 p' s)) : layer A' Y W (ix2 p j) = layer A Y W (ix2 p' j) := by
  unfold layer
  rw [mm_apply, mm_apply]
  refine Finset.sum_congr rfl fun q _ => ?_
  rw [relu_apply, relu_apply, mm_rows A' A Y p p' q hA]

/-- The same for the last layer. -/
theorem last_rows (A' : Mat r n) (A : Mat N n) (Y : Mat n h) (p : Fin r) (p' : Fin N) (j : Fin h)
    (hA : ∀ s : Fin n, A' (ix2 p s) = A (ix2 p' s)) : relu (mm A' Y) (ix2 p j) = relu (mm A Y) (ix2 p' j) := by
  rw [relu_apply, relu_apply, mm_rows A' A Y p p' j hA]

end Cert.LibGcn

end
-- ==== Proof.DenseBlocks.lean ====
/-
  The two kernel regions of the idealized program, each as ONE whole-array function of the arrays it finds.

  Both regions walk the 100000 rows in 20 blocks of 5000. At a point t the first stores, into rows
  5000·t … 5000·t + 4999 of its output, the product of those rows of its left operand with its whole right
  operand (512 × 16); the second stores the product of the positive part of those rows of its left operand with
  its whole right operand (16 × 7). Over the exact extended reals a change of float format is the identity and a
  product into the zero accumulator is the plain sum of products, so an entry (p, j) of a block's result is
  Σ_q X(5000·t + p, q) · W(q, j): it reads row 5000·t + p of the left operand only. The blocks are therefore the
  restrictions of one function of the whole arrays — the matrix product X · W, respectively (X)⁺ · W — and, the 20
  blocks tiling the rows, the output array ends holding that function.
-/
import proofs.«130650_j13898514169996_1_alg».proof.Proof.Gen.KernelIdeal.Frame
import proofs.«130650_j13898514169996_1_alg».proof.Proof.LibGcn
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

/-- An entry of a matrix product reads one row of the left factor and one column of the right factor: if row p of A'
    is row (i 0) of A and column q of Y' is column (i 1) of Y, entry (p, q) of A' · Y' is entry i of A · Y. -/
theorem mm_entry {N n h r : ℕ} (A : Mat N n) (Y : Mat n h) (A' : Mat r n) (Y' : Mat n h) (p : Fin r) (q : Fin h)
    (i : (⟨2, ![N, h]⟩ : Shape).Idx)
    (hA : ∀ s : Fin n, A' (ix2 p s) = A (ix2 (i 0) s)) (hY : ∀ s : Fin n, Y' (ix2 s q) = Y (ix2 s (i 1))) :
    mm A' Y' (ix2 p q) = mm A Y i := by
  rw [mm_apply]
  show _ = ∑ s : Fin n, A (ix2 (i 0) s) * Y (ix2 s (i 1))
  exact Finset.sum_congr rfl fun s _ => by rw [hA s, hY s]

theorem hz : (![0, 0] : Fin 2 → Nat) = fun _ => 0 := funext fun a => by fin_cases a <;> rfl

/-! ## The bodies' stored values -/

/-- The first body stores the product of its two loaded blocks. -/
theorem pay0 (x0 : Vec Ideal S5000x512 .f32) (x1 : Vec Ideal S512x16 .f32) :
    k0_pay1 (F := Ideal) x0 x1 = mm x0 x1 := by
  unfold k0_pay1
  exact Cert.LibGcn.matmul_zero_eq_mm dot_S5000x512_S512x16_S5000x16_1_0_0_1_n_n rfl none _ _

/-- The second body stores the product of the positive part of its first loaded block with its second. -/
theorem pay1 (x0 : Vec Ideal S5000x16 .f32) (x1 : Vec Ideal S16x7 .f32) :
    k1_pay1 (F := Ideal) x0 x1 = mm (relu x0) x1 := by
  unfold k1_pay1
  refine (Cert.LibGcn.matmul_zero_eq_mm dot_S5000x16_S16x7_S5000x7_1_0_0_1_n_n rfl none _ _).trans ?_
  show mm (maximumf (shapeCast S5000x16 x0 shapeCasts_S5000x16_S5000x16)
      (broadcast S5000x16 (Scalar.ofBits .f32 0x00000000#32 : Ideal .f32))) x1 = mm (relu x0) x1
  rw [shapeCast_self, Cert.LibGcn.max_splat_zero]

/-! ## The index maps, decided over the 20 points -/

/-- In the first region the left operand's and the output's blocks are block-row t, the right operand's is the
    whole array. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The same in the second region. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section Regions

variable (V : (c : Dev nD) → (b : Ref sig .tc) → Buf (Elt Ideal) ((c : Thread nD τ).loc b))

/-! ## The first region: x · W1 -/

/-- What point t writes back is block t of the product of the two operand arrays as the region finds them. -/
theorem flushed0 (c : Dev nD) (t : Fin cfg0.N) :
    (dat0 V c).flushed 2 t = ((cfg0.win 2).blk t).view.read (Elt Ideal)
      (mm (V c main_arg0) (V c main_arg2) : S100000x16.Idx → Elt Ideal .f32) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  rw [pay0]
  obtain ⟨e00, e01, e10, e11, e20, e21⟩ := idx0 t
  funext j
  obtain ⟨p, q, rfl⟩ : ∃ (p : Fin 5000) (q : Fin 16), j = ix2 p q := ⟨j 0, j 1, eq_ix2 j⟩
  show mm (iblk0 V c 0 t) (iblk0 V c 1 t) (ix2 p q)
    = mm (V c main_arg0) (V c main_arg2) (((cfg0.win 2).blk t).view.emb (ix2 p q))
  refine mm_entry (V c main_arg0) (V c main_arg2) (iblk0 V c 0 t) (iblk0 V c 1 t) p q
    (((cfg0.win 2).blk t).view.emb (ix2 p q)) (fun s => ?_) (fun s => ?_)
  · have e : ((cfg0.win 0).blk t).view.emb (ix2 p s)
        = ix2 ((((cfg0.win 2).blk t).view.emb (ix2 p q)) 0) s := by
      funext a; apply Fin.ext
      match a with
      | ⟨0, _⟩ => show win0_0.index t (0 : Fin 2) * 5000 + 1 * p.val = win0_2.index t (0 : Fin 2) * 5000 + 1 * p.val; omega
      | ⟨1, _⟩ => show win0_0.index t (1 : Fin 2) * 512 + 1 * s.val = s.val; omega
    show V c main_arg0 (((cfg0.win 0).blk t).view.emb (ix2 p s)) = V c main_arg0 (ix2 _ s)
    exact congrArg (V c main_arg0) e
  · have e : ((cfg0.win 1).blk t).view.emb (ix2 s q)
        = ix2 s ((((cfg0.win 2).blk t).view.emb (ix2 p q)) 1) := by
      funext a; apply Fin.ext
      match a with
      | ⟨0, _⟩ => show win0_1.index t (0 : Fin 2) * 512 + 1 * s.val = s.val; omega
      | ⟨1, _⟩ => show win0_1.index t (1 : Fin 2) * 16 + 1 * q.val = win0_2.index t (1 : Fin 2) * 16 + 1 * q.val; omega
    show V c main_arg2 (((cfg0.win 1).blk t).view.emb (ix2 s q)) = V c main_arg2 (ix2 s _)
    exact congrArg (V c main_arg2) e

/-- An index of the output array is in point t's block iff each coordinate is in the block's range on its axis. -/
theorem mem_blk0 (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v4).slice (win0_2.rect t)).set ↔ _
  rw [View.set_slice_whole, Rect.mem_set_unit]
  exact Iff.rfl

/-- Row r of the output is in the block of point r / 5000: the 20 blocks cover the array. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have ht : (i 0).val / 5000 < cfg0.N := by show (i 0).val / 5000 < 20; omega
  obtain ⟨-, -, -, -, e20, e21⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, ht⟩ (1 : Fin 2) * 16 ≤ (i 1).val
      ∧ (i 1).val < win0_2.index ⟨(i 0).val / 5000, ht⟩ (1 : Fin 2) * 16 + 16
    rw [e21]; omega

/-- THE FIRST REGION'S OUTPUT ARRAY after its 20 points: the product of its two operand arrays as it finds them. -/
theorem array0 (c : Dev nD) :
    (dat0 V c).arrAt 2 cfg0.N = (mm (V c main_arg0) (V c main_arg2) : S100000x16.Idx → Elt Ideal .f32) :=
  (dat0 V c).arrAt_eq_of_cover 2 _ (fun t _ => flushed0 V c t) cover0

/-! ## The second region: (h)⁺ · W2 -/

/-- What point t writes back is block t of the product of the positive part of the first operand array with the second,
    as the region finds them. -/
theorem flushed1 (c : Dev nD) (t : Fin cfg1.N) :
    (dat1 V c).flushed 2 t = ((cfg1.win 2).blk t).view.read (Elt Ideal)
      (mm (relu (V c main_v46)) (V c main_arg4) : S100000x7.Idx → Elt Ideal .f32) := by
  show (cfg1.win 2).cut (grid1.coords t) ((dat1 V c).after 2 t) = _
  rw [after1_2]
  unfold out1_2
  rw [View.canon_unit_zero hz]
  simp only [View.ld_unit_zero (S := S5000x16) hz, View.ld_unit_zero (S := S16x7) hz]
  rw [pay1]
  obtain ⟨e00, e01, e10, e11, e20, e21⟩ := idx1 t
  funext j
  obtain ⟨p, q, rfl⟩ : ∃ (p : Fin 5000) (q : Fin 7), j = ix2 p q := ⟨j 0, j 1, eq_ix2 j⟩
  show mm (relu (iblk1 V c 0 t)) (iblk1 V c 1 t) (ix2 p q)
    = mm (relu (V c main_v46)) (V c main_arg4) (((cfg1.win 2).blk t).view.emb (ix2 p q))
  refine mm_entry (relu (V c main_v46)) (V c main_arg4) (relu (iblk1 V c 0 t)) (iblk1 V c 1 t) p q
    (((cfg1.win 2).blk t).view.emb (ix2 p q)) (fun s => ?_) (fun s => ?_)
  · have e : ((cfg1.win 0).blk t).view.emb (ix2 p s)
        = ix2 ((((cfg1.win 2).blk t).view.emb (ix2 p q)) 0) s := by
      funext a; apply Fin.ext
      match a with
      | ⟨0, _⟩ => show win1_0.index t (0 : Fin 2) * 5000 + 1 * p.val = win1_2.index t (0 : Fin 2) * 5000 + 1 * p.val; omega
      | ⟨1, _⟩ => show win1_0.index t (1 : Fin 2) * 16 + 1 * s.val = s.val; omega
    show relu (V c main_v46) (((cfg1.win 0).blk t).view.emb (ix2 p s)) = relu (V c main_v46) (ix2 _ s)
    exact congrArg (relu (V c main_v46)) e
  · have e : ((cfg1.win 1).blk t).view.emb (ix2 s q)
        = ix2 s ((((cfg1.win 2).blk t).view.emb (ix2 p q)) 1) := by
      funext a; apply Fin.ext
      match a with
      | ⟨0, _⟩ => show win1_1.index t (0 : Fin 2) * 16 + 1 * s.val = s.val; omega
      | ⟨1, _⟩ => show win1_1.index t (1 : Fin 2) * 7 + 1 * q.val = win1_2.index t (1 : Fin 2) * 7 + 1 * q.val; omega
    show V c main_arg4 (((cfg1.win 1).blk t).view.emb (ix2 s q)) = V c main_arg4 (ix2 s _)
    exact congrArg (V c main_arg4) e

theorem mem_blk1 (t : Fin cfg1.N) (i : S100000x7.Idx) :
    i ∈ ((cfg1.win 2).blk t).view.set ↔ ∀ a : Fin 2, win1_2.index t a * S5000x7.size a ≤ (i a).val
      ∧ (i a).val < win1_2.index t a * S5000x7.size a + S5000x7.size a := by
  show i ∈ ((View.whole main_v47).slice (win1_2.rect t)).set ↔ _
  rw [View.set_slice_whole, Rect.mem_set_unit]
  exact Iff.rfl

theorem cover1 (i : S100000x7.Idx) :
    ∃ t : Fin cfg1.N, (cfg1.win 2).flush t = true ∧ i ∈ ((cfg1.win 2).blk t).view.set := by
  have hi0 : (i 0).val < 100000 := (i 0).isLt
  have hi1 : (i 1).val < 7 := (i 1).isLt
  have ht : (i 0).val / 5000 < cfg1.N := by show (i 0).val / 5000 < 20; omega
  obtain ⟨-, -, -, -, e20, e21⟩ := idx1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win1_2.index ⟨(i 0).val / 5000, ht⟩ (1 : Fin 2) * 7 ≤ (i 1).val
      ∧ (i 1).val < win1_2.index ⟨(i 0).val / 5000, ht⟩ (1 : Fin 2) * 7 + 7
    rw [e21]; omega

/-- THE SECOND REGION'S OUTPUT ARRAY after its 20 points: the product of the positive part of its first operand array
    with its second, as it finds them. -/
theorem array1 (c : Dev nD) :
    (dat1 V c).arrAt 2 cfg1.N = (mm (relu (V c main_v46)) (V c main_arg4) : S100000x7.Idx → Elt Ideal .f32) :=
  (dat1 V c).arrAt_eq_of_cover 2 _ (fun t _ => flushed1 V c t) cover1

end Regions

end Cert.KernelIdeal.Blocks

end
-- ==== Proof.Chain.lean ====
/-
  The two programs end with the same result.

  The kernel program's run leaves, in its result buffer, the fold of its ten segments over the launch memory; the
  reference's run leaves the fold of its 134 operations. Cut the reference where the kernel program has its regions.
  Then, piece by piece from contents that agree on the six argument arrays:
    * the four slicing operations are the same, so the sources and the targets agree;
    * the first region leaves x · W1 in its output array (the tiled products are the blocks of one matrix product),
      and the reference's host product is the same matrix product over the exact extended reals, where a product
      into the zero accumulator and a host product are both the plain sum of products;
    * the 55 operations of the first aggregation are the same, so the aggregated arrays h agree;
    * the second region leaves (h)⁺ · W2, and so do the reference's maximum with a broadcast zero and host product;
    * the 55 operations of the second aggregation are the same, so the second aggregated arrays agree;
    * the 15 operations of the log-softmax are the same, so the results agree.
  No step uses a law that fails at an infinity: the sums of products are compared as they stand, term by term.
-/
import proofs.«130650_j13898514169996_1_alg».proof.Proof.ChainHead
import proofs.«130650_j13898514169996_1_alg».proof.Proof.ChainMid
import proofs.«130650_j13898514169996_1_alg».proof.Proof.ChainTail
import proofs.«130650_j13898514169996_1_alg».proof.Proof.ChainSoftmax
import proofs.«130650_j13898514169996_1_alg».proof.Proof.DenseBlocks
import proofs.«130650_j13898514169996_1_alg».proof.Proof.Gen.KernelIdeal.Frame

set_option maxRecDepth 16384

noncomputable section

namespace Cert.Chain

open Idealize.ShloMosaic Idealize.ShloMosaic.TcCoe Idealize.SL.Sem Idealize.ShloMosaic.StableHlo
open Cert.Spec

variable (m : (ℓ : Loc Cert.KernelIdeal.nD Cert.KernelIdeal.τ Cert.KernelIdeal.sig) → Buf (Elt Ideal) ℓ) (ρ : Dev Cert.KernelIdeal.nD → PrngReg)

/-- At the first region's exit its output array holds the product of x and W1 as the region found them. -/
theorem regionOne (c : Dev Cert.KernelIdeal.nD) :
    Cert.KernelIdeal.Gen.W2 m ρ c (Proc.devRef .tc Cert.KernelIdeal.main_v4)
      = (mm (Cert.KernelIdeal.Gen.W1 m ρ c (Proc.devRef .tc Cert.KernelIdeal.main_arg0)) (Cert.KernelIdeal.Gen.W1 m ρ c (Proc.devRef .tc Cert.KernelIdeal.main_arg2)) : Cert.KernelIdeal.S100000x16.Idx → Elt Ideal .f32) :=
  (Cert.KernelIdeal.Gen.W2_arr m ρ c 2).trans (Cert.KernelIdeal.Blocks.array0 (Cert.KernelIdeal.Gen.V1 m ρ) c)

/-- At the second region's exit its output array holds the product of the positive part of the aggregated array with
    W2, as the region found them. -/
theorem regionTwo (c : Dev Cert.KernelIdeal.nD) :
    Cert.KernelIdeal.Gen.W6 m ρ c (Proc.devRef .tc Cert.KernelIdeal.main_v47)
      = (mm (relu (Cert.KernelIdeal.Gen.W5 m ρ c (Proc.devRef .tc Cert.KernelIdeal.main_v46))) (Cert.KernelIdeal.Gen.W5 m ρ c (Proc.devRef .tc Cert.KernelIdeal.main_arg4)) : Cert.KernelIdeal.S100000x7.Idx → Elt Ideal .f32) :=
  (Cert.KernelIdeal.Gen.W6_arr m ρ c 2).trans (Cert.KernelIdeal.Blocks.array1 (Cert.KernelIdeal.Gen.V5 m ρ) c)

set_option maxHeartbeats 4000000 in
/-- From launch memories that agree on the six argument arrays, the reference's result buffer after its 134 operations
    holds what the kernel program's result buffer holds after its ten segments. -/
theorem results_agree (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (after (Cert.ReferenceIdeal.ValueP.ops (F := Ideal)) (launchContents m' c) (Proc.devRef .tc Cert.ReferenceIdeal.main_v91) : (⟨Cert.KernelIdeal.S100000x7, .f32⟩ : BufTy).Contents (Elt Ideal))
      = Cert.KernelIdeal.Gen.W10 m ρ c (Proc.devRef .tc Cert.KernelIdeal.main_v90) := by
  rw [Cert.ReferenceIdeal.Split.after_ops]
  obtain ⟨A1, A3, Aa0, Aa2, Aa3, Aa4, Aa5⟩ :=
    stretchA (F := Ideal) (Cert.KernelIdeal.Gen.W0 m ρ c) (launchContents m' c) h0 h1 h2 h3 h4 h5
  obtain ⟨P1, P3, Pa3, Pa4, Pa5⟩ := productOne_keeps (F := Ideal) (after (Cert.ReferenceIdeal.Split.opsA (F := Ideal)) (launchContents m' c))
  have P : ((after (Cert.ReferenceIdeal.Split.opsP1 (F := Ideal)) (after (Cert.ReferenceIdeal.Split.opsA (F := Ideal)) (launchContents m' c))) (Proc.devRef .tc Cert.ReferenceIdeal.main_v4) : (⟨Cert.KernelIdeal.S100000x16, .f32⟩ : BufTy).Contents (Elt Ideal)) = Cert.KernelIdeal.Gen.W2 m ρ c (Proc.devRef .tc Cert.KernelIdeal.main_v4) := by
    rw [productOne, Cert.LibGcn.dotGeneral_eq_mm Cert.ReferenceIdeal.dot_S100000x512_S512x16_S100000x16_1_0_0_1_n_n rfl none, Aa0, Aa2]
    exact (regionOne m ρ c).symm
  obtain ⟨B46, B1, B3, Ba4, Ba5⟩ :=
    stretchB (F := Ideal) (Cert.KernelIdeal.Gen.W2 m ρ c) (after (Cert.ReferenceIdeal.Split.opsP1 (F := Ideal)) (after (Cert.ReferenceIdeal.Split.opsA (F := Ideal)) (launchContents m' c))) P
      (P1.trans (A1.trans (Cert.KernelIdeal.Gen.W2_of_ne m ρ c Cert.KernelIdeal.main_v1 (by decide)).symm))
      (P3.trans (A3.trans (Cert.KernelIdeal.Gen.W2_of_ne m ρ c Cert.KernelIdeal.main_v3 (by decide)).symm))
      (Pa3.trans (Aa3.trans (Cert.KernelIdeal.Gen.W2_of_ne m ρ c Cert.KernelIdeal.main_arg3 (by decide)).symm))
      (Pa4.trans (Aa4.trans (Cert.KernelIdeal.Gen.W2_of_ne m ρ c Cert.KernelIdeal.main_arg4 (by decide)).symm))
      (Pa5.trans (Aa5.trans (Cert.KernelIdeal.Gen.W2_of_ne m ρ c Cert.KernelIdeal.main_arg5 (by decide)).symm))
  obtain ⟨Q1, Q3, Qa5⟩ := productTwo_keeps (F := Ideal) (after (Cert.ReferenceIdeal.Split.opsB (F := Ideal)) (after (Cert.ReferenceIdeal.Split.opsP1 (F := Ideal)) (after (Cert.ReferenceIdeal.Split.opsA (F := Ideal)) (launchContents m' c))))
  have Q : ((after (Cert.ReferenceIdeal.Split.opsP2 (F := Ideal)) (after (Cert.ReferenceIdeal.Split.opsB (F := Ideal)) (after (Cert.ReferenceIdeal.Split.opsP1 (F := Ideal)) (after (Cert.ReferenceIdeal.Split.opsA (F := Ideal)) (launchContents m' c))))) (Proc.devRef .tc Cert.ReferenceIdeal.main_v48) : (⟨Cert.KernelIdeal.S100000x7, .f32⟩ : BufTy).Contents (Elt Ideal)) = Cert.KernelIdeal.Gen.W6 m ρ c (Proc.devRef .tc Cert.KernelIdeal.main_v47) := by
    rw [productTwo, Cert.LibGcn.dotGeneral_eq_mm Cert.ReferenceIdeal.dot_S100000x16_S16x7_S100000x7_1_0_0_1_n_n rfl none,
      Cert.LibGcn.max_bcast_zero, B46, Ba4]
    exact (regionTwo m ρ c).symm
  refine stretchS (F := Ideal) (Cert.KernelIdeal.Gen.W9 m ρ c) (after (Cert.ReferenceIdeal.Split.opsC (F := Ideal)) (after (Cert.ReferenceIdeal.Split.opsP2 (F := Ideal)) (after (Cert.ReferenceIdeal.Split.opsB (F := Ideal)) (after (Cert.ReferenceIdeal.Split.opsP1 (F := Ideal)) (after (Cert.ReferenceIdeal.Split.opsA (F := Ideal)) (launchContents m' c)))))) ?_
  exact stretchC (F := Ideal) (Cert.KernelIdeal.Gen.W6 m ρ c) (after (Cert.ReferenceIdeal.Split.opsP2 (F := Ideal)) (after (Cert.ReferenceIdeal.Split.opsB (F := Ideal)) (after (Cert.ReferenceIdeal.Split.opsP1 (F := Ideal)) (after (Cert.ReferenceIdeal.Split.opsA (F := Ideal)) (launchContents m' c))))) Q
    (Q1.trans (B1.trans (Cert.KernelIdeal.Gen.W6_of_ne m ρ c Cert.KernelIdeal.main_v1 (by decide)).symm))
    (Q3.trans (B3.trans (Cert.KernelIdeal.Gen.W6_of_ne m ρ c Cert.KernelIdeal.main_v3 (by decide)).symm))
    (Qa5.trans (Ba5.trans (Cert.KernelIdeal.Gen.W6_of_ne m ρ c Cert.KernelIdeal.main_arg5 (by decide)).symm))

end Cert.Chain

end
-- ==== Proof.lean ====
/-
  A two-layer graph convolution with a log-softmax, as a tiled kernel program against its plain reference.

  Both programs compute  log_softmax( Agg( relu( Agg(x · W1) + b1 ) · W2 ) + b2 )  over 100000 nodes and 3200000
  edges, where Agg adds to every node's row the rows of its in-neighbours (and its own), each scaled by the inverse
  square roots of the two endpoints' in-degrees. They differ only in how the two dense products are formed: the
  reference by one host product each; the kernel program by a kernel region each that walks the rows in 20 blocks of
  5000, rounds its operands to bf16 and multiplies into a zero f32 accumulator (the second also taking the positive
  part first). The aggregations, the biases and the log-softmax are the same host operations in both.

  Over the exact extended reals the rounding is the identity and a product into the zero accumulator is the plain sum
  of products, so each region's output array is the whole matrix product (DenseBlocks); the host operations between
  and after the regions are the same in the two programs, so equal inputs give equal outputs, piece by piece
  (ChainHead, ChainMid, ChainTail, ChainSoftmax, chained in Chain). No law that fails at an infinity is used, and the precondition
  (finite inputs) is not needed. The ideal pass rewrote nothing, so the kernel program's idealization is its own text.
  Frames: the two kernel programs' are the generated ones; the reference's is its run with the result dropped.
-/
import proofs.«130650_j13898514169996_1_alg».proof.Defs
import proofs.«130650_j13898514169996_1_alg».proof.Proof.Gen.Kernel
import proofs.«130650_j13898514169996_1_alg».proof.Proof.Gen.Kernel.Skeleton
import proofs.«130650_j13898514169996_1_alg».proof.Proof.Gen.Kernel.Launch
import proofs.«130650_j13898514169996_1_alg».proof.Proof.Gen.Kernel.Points
import proofs.«130650_j13898514169996_1_alg».proof.Proof.Gen.Kernel.Frame
import proofs.«130650_j13898514169996_1_alg».proof.Proof.Gen.KernelIdeal
import proofs.«130650_j13898514169996_1_alg».proof.Proof.Gen.KernelIdeal.Skeleton
import proofs.«130650_j13898514169996_1_alg».proof.Proof.Gen.KernelIdeal.Launch
import proofs.«130650_j13898514169996_1_alg».proof.Proof.Gen.KernelIdeal.Points
import proofs.«130650_j13898514169996_1_alg».proof.Proof.Gen.KernelIdeal.Frame
import proofs.«130650_j13898514169996_1_alg».proof.Proof.Gen.ReferenceIdeal
import proofs.«130650_j13898514169996_1_alg».proof.Proof.Gen.Pre_finite_inputs
import proofs.«130650_j13898514169996_1_alg».proof.Proof.KernelRun
import proofs.«130650_j13898514169996_1_alg».proof.Proof.RefSeq
import proofs.«130650_j13898514169996_1_alg».proof.Proof.Chain
import Idealize.ShloMosaic.Adequacy
import Idealize.ShloMosaic.Init

noncomputable section

namespace Cert.Proof

open Idealize.ShloMosaic Idealize.SL.Sem

/-- The word-level kernel program runs and leaves its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono (fun _ h c =>
    have k := Cert.ReferenceIdeal.Seq.keeps_args (F := Ideal) (StableHlo.launchContents m c)
    ⟨(h c Cert.ReferenceIdeal.main_arg0).trans k.1, (h c Cert.ReferenceIdeal.main_arg1).trans k.2.1,
     (h c Cert.ReferenceIdeal.main_arg2).trans k.2.2.1, (h c Cert.ReferenceIdeal.main_arg3).trans k.2.2.2.1,
     (h c Cert.ReferenceIdeal.main_arg4).trans k.2.2.2.2.1, (h c Cert.ReferenceIdeal.main_arg5).trans k.2.2.2.2.2⟩)
    (Cert.ReferenceIdeal.Seq.run (F := Ideal) m ρ)

/-- From memories agreeing on the arguments both idealized programs run and end with the same result — what the
    kernel program's ten segments leave in its result buffer — and with their arguments unchanged. -/
theorem algebraic : Cert.algebraic_KernelIdeal_ReferenceIdeal := fun m ρ m' ρ' _ hagree =>
  ⟨fun c => Cert.KernelIdeal.Gen.W10 m ρ c (Proc.devRef .tc Cert.KernelIdeal.main_v90),
   Cert.KernelIdeal.Named.run m ρ,
   (θ_run Cert.ReferenceIdeal.defs _ _).mono (fun _ h c =>
     have k := Cert.ReferenceIdeal.Seq.keeps_args (F := Ideal) (StableHlo.launchContents m' c)
     ⟨(h c Cert.ReferenceIdeal.main_v91).trans
        (Cert.Chain.results_agree m ρ m' c (hagree c).1 (hagree c).2.1 (hagree c).2.2.1 (hagree c).2.2.2.1
          (hagree c).2.2.2.2.1 (hagree c).2.2.2.2.2),
      (h c Cert.ReferenceIdeal.main_arg0).trans k.1, (h c Cert.ReferenceIdeal.main_arg1).trans k.2.1,
      (h c Cert.ReferenceIdeal.main_arg2).trans k.2.2.1, (h c Cert.ReferenceIdeal.main_arg3).trans k.2.2.2.1,
      (h c Cert.ReferenceIdeal.main_arg4).trans k.2.2.2.2.1, (h c Cert.ReferenceIdeal.main_arg5).trans k.2.2.2.2.2⟩)
     (Cert.ReferenceIdeal.Seq.run (F := Ideal) m' ρ')⟩

theorem claim : Cert.Claim :=
  ⟨Cert.Kernel.Gen.facts, Cert.KernelIdeal.Gen.facts, Cert.ReferenceIdeal.Gen.facts, Cert.Pre_finite_inputs.Gen.facts,
   frame_k, frame_ki, frame_ri, trivial, algebraic⟩

end Cert.Proof

end
